-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) (main_arg2 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  main_v13
-- ==== Kernel.lean ====
abbrev S2x8x2048x64 : Shape := ⟨4, ![2, 8, 2048, 64]⟩
abbrev S16x2048x64 : Shape := ⟨3, ![16, 2048, 64]⟩
abbrev S16x2048x2048 : Shape := ⟨3, ![16, 2048, 2048]⟩
abbrev S1x2048x64 : Shape := ⟨3, ![1, 2048, 64]⟩
abbrev S1x256x64 : Shape := ⟨3, ![1, 256, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2x8x2048x2048 : Shape := ⟨4, ![2, 8, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S16x2048x2048, .f32⟩
  | .hbm, ⟨8, _⟩ => ⟨S2x8x2048x64, .f32⟩
  | .hbm, ⟨9, _⟩ => ⟨S2x8x2048x2048, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x8x2048x64_S16x2048x64 : S2x8x2048x64.ShapeCasts S16x2048x64
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x64_S1x256x64_0_0_0 : ∀ a, (![0, 0, 0] : Fin 3 → Nat) a + S1x256x64.size a ≤ S1x256x64.size a
  shapeCasts_S256x64_S1x256x64 : S256x64.ShapeCasts S1x256x64
  shapeCasts_S16x2048x64_S2x8x2048x64 : S16x2048x64.ShapeCasts S2x8x2048x64
  shapeCasts_S16x2048x2048_S2x8x2048x2048 : S16x2048x2048.ShapeCasts S2x8x2048x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x2048x2048.size a
  hwx0_4 : ∀ i : grid0.Coords, EltTy.bits .f32 = 32 ∨ (Rect.block (s := S16x2048x2048) S1x256x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048x2048, .f32⟩
  | .hbm, ⟨14, _⟩ => ⟨S2x8x2048x2048, .f32⟩
  | .hbm, ⟨15, _⟩ => ⟨S_, .f32⟩
  | .hbm, ⟨16, _⟩ => ⟨S2x8x2048, .f32⟩
  | .hbm, ⟨17, _⟩ => ⟨S_, .f32⟩
  | .hbm, ⟨18, _⟩ => ⟨S2x8x2048, .f32⟩
  | .hbm, ⟨19, _⟩ => ⟨S2x8x2048, .f32⟩
  | .hbm, ⟨20, _⟩ => ⟨S2x8x2048x1, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048, .f32⟩
  | .hbm, ⟨31, _⟩ => ⟨S_, .f32⟩
  | .hbm, ⟨32, _⟩ => ⟨S2x8x2048, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x2048, .f32⟩
  | .hbm, ⟨42, _⟩ => ⟨S2x8x2048x2048, .f32⟩
  | .hbm, ⟨43, _⟩ => ⟨S2x8x2048x2048, .f32⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S2x8x2048, .f32⟩
  | .hbm, ⟨49, _⟩ => ⟨S2x8x2048x1, .f32⟩
  | .hbm, ⟨50, _⟩ => ⟨S2x8x2048x2048, .f32⟩
  | .hbm, ⟨51, _⟩ => ⟨S2x8x2048x2048, .f32⟩
  | .hbm, ⟨52, _⟩ => ⟨S2x8x2048x2048, .f32⟩
  | .hbm, ⟨53, _⟩ => ⟨S_, .f32⟩
  | .hbm, ⟨54, _⟩ => ⟨S2x8x2048, .f32⟩
  | .hbm, ⟨55, _⟩ => ⟨S2x8x2048x1, .f32⟩
  | .hbm, ⟨56, _⟩ => ⟨S2x8x2048x2048, .f32⟩
  | .hbm, ⟨57, _⟩ => ⟨S2x8x2048x2048, .f32⟩
  | .hbm, ⟨58, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.Pieces.lean ====
/-
  What one grid point leaves in its two output blocks, as values of the three input blocks.

  At the point with second coordinate `i₁` the body reads the 256 rows `256·i₁ …` of the query block and of the key
  block, and the whole query, key and value blocks; it stores the attention-output block once and the
  attention-weight block once, each through the whole staging buffer.  So each output block is the stored payload,
  a pure function of those five loads.
-/
import proofs.«154308_j19610820674059_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

/-- The 256 rows of a [1, 2048, 64] block that the point `i` works on. -/
abbrev rows (i : grid0.Coords) (x : Vec F S1x2048x64 .f32) : Vec F S1x256x64 .f32 :=
  View.ld x (Rect.unit (s := S1x2048x64) (k0_off1 i) S1x256x64.size (k0_off1_inb i))

/-- The attention-output block a point leaves: the softmax of its query rows against all keys, applied to the values. -/
theorem out_block (c : Dev nD) (i : grid0.Coords) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x64 .f32) (harg5 : arg5.IsWhole) (arg6 : Memref sig .tc .vmem S1x256x2048 .f32) (harg6 : arg6.IsWhole)
    (x0 : Vec F S1x2048x64 .f32) (x1 : Vec F S1x2048x64 .f32) (x2 : Vec F S1x2048x64 .f32) :
    out0_A_3 c i arg2 harg2 arg3 harg3 arg4 harg4 arg5 harg5 arg6 harg6 x0 x1 x2 = k0_pay2 (k0_pay5 x2) (k0_pay8 (rows i x0) x1) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz3]
  simp only [View.readAt_eq_ld, harg2.read_unread, harg3.read_unread, harg4.read_unread, View.ld_unit_zero (S := S1x2048x64) hz3]
  rfl

/-- The attention-weight block a point leaves: the two self-similarity softmaxes of its query rows and of its key rows. -/
theorem weight_block (c : Dev nD) (i : grid0.Coords) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x64 .f32) (harg5 : arg5.IsWhole) (arg6 : Memref sig .tc .vmem S1x256x2048 .f32) (harg6 : arg6.IsWhole)
    (x0 : Vec F S1x2048x64 .f32) (x1 : Vec F S1x2048x64 .f32) (x2 : Vec F S1x2048x64 .f32) :
    out0_A_4 c i arg2 harg2 arg3 harg3 arg4 harg4 arg5 harg5 arg6 harg6 x0 x1 x2 = k0_pay1 (k0_pay6 (rows i x0) x0) (k0_pay7 (rows i x1) x1) := by
  unfold out0_A_4
  rw [View.read_writes_eq_canon _ _ _ (cover0_A_4 c i arg2 harg2 arg3 harg3 arg4 harg4 arg5 harg5 arg6 harg6 x0 x1 x2)]
  unfold kernelRun0_A
  dsimp only
  sl_unfold_words
  rw [View.canon_unit_zero hz3]
  simp only [View.readAt_eq_ld, harg2.read_unread, harg3.read_unread, harg4.read_unread, View.ld_unit_zero (S := S1x2048x64) hz3]
  rfl

end Cert.KernelIdeal.Pieces

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.LibSoftmaxTile.lean ====
/-
  The shifted softmax of the rows of an `[a, b]` tile, as a kernel computes it with keepdims layout moves, read at an
  entry, at the ideal values.

  For a row `f` of `b` extended reals: its maximum `M` is taken from `-∞` and then once more against `-∞`; each entry
  is shifted by `M` and exponentiated; the weight of entry `s` is that exponential over the sum of the row's
  exponentials.  A kernel takes the maximum along the lanes into a vector, views it as an `[a, 1]` column, spreads the
  column back over the lanes, subtracts, exponentiates, sums along the lanes, and divides by the sum spread back the
  same way.  Read at `(p, s)`, every step is the row-level expression of the entries `T (ix2 p k)` of row `p`.
-/
import Idealize.ShloMosaic.Lib.ValueIdx
import Idealize.ShloMosaic.Lib.Pipeline.Value
import Idealize.ShloMosaic.PureOps.Ideal.Laws
import proofs.«154308_j19610820674059_1_alg».proof.Proof.LibKeepdims
import proofs.«154308_j19610820674059_1_alg».proof.Proof.LibRowMax

noncomputable section

open scoped BigOperators

namespace Cert.Lib.SoftmaxTile

open Idealize.ShloMosaic Idealize.ShloMosaic.ValueIdx

/-- `-∞`, as the word the maxima start from. -/
def negInf : EReal := Ideal.ofBits .f32 0xFF800000#32

/-- The maximum of a row, taken from `-∞` and then once more against `-∞`. -/
def rowMax {n : ℕ} (f : Fin n → EReal) : EReal :=
  max negInf ((Finset.univ : Finset (Fin n)).fold max negInf f)

/-- A row entry shifted by the row's maximum and exponentiated. -/
def expShift {n : ℕ} (f : Fin n → EReal) (s : Fin n) : EReal := Ideal.exp (f s - rowMax f)

/-- The softmax weight of entry `s` in the row `f`. -/
def softmax {n : ℕ} (f : Fin n → EReal) (s : Fin n) : EReal :=
  Ideal.div (expShift f s) (∑ k : Fin n, expShift f k)

variable {a b : ℕ}

/-- The tile's row maxima, kept as a column and spread back over the lanes. -/
abbrev maxSpread (T : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  broadcastTo ⟨2, ![a, b]⟩ (shapeCast ⟨2, ![a, 1]⟩ (maximumf (broadcast ⟨1, ![a]⟩ (Scalar.ofBits (F := Ideal) .f32 0xFF800000#32))
    (multiReduction (F := Ideal) .maximumf [1] ⟨1, ![a]⟩ T 0xFF800000#32 h hφ hacc)) hc) hb

/-- Read at `(p, s)` it is the maximum of row `p`. -/
theorem maxSpread_apply (T : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (s : Fin b) :
    maxSpread T h hφ hacc hc hb (ix2 p s) = rowMax (fun k => T (ix2 p k)) := by
  unfold maxSpread
  rw [Cert.Lib.Keepdims.broadcastTo_a1_ab_apply, Cert.Lib.Keepdims.shapeCast_a_a1_apply]
  show max (Ideal.ofBits .f32 0xFF800000#32) (multiReduction (F := Ideal) .maximumf [1] ⟨1, ![a]⟩ T 0xFF800000#32 h hφ hacc (ix1 p)) = _
  rw [Cert.Lib.RowMax.rowMax_apply]
  rfl

/-- The tile shifted by its row maxima and exponentiated. -/
abbrev expTile (T : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf T (maxSpread T h hφ hacc hc hb))

/-- Read at `(p, s)` it is the shifted exponential of entry `s` of row `p`. -/
theorem expTile_apply (T : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (s : Fin b) :
    expTile T h hφ hacc hc hb (ix2 p s) = expShift (fun k => T (ix2 p k)) s := by
  show Ideal.exp (T (ix2 p s) - maxSpread T h hφ hacc hc hb (ix2 p s)) = _
  rw [maxSpread_apply]
  rfl

/-- A tile divided by its row sums, the sums kept as a column and spread back over the lanes. -/
abbrev normalize (E : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf E (broadcastTo ⟨2, ![a, b]⟩ (shapeCast ⟨2, ![a, 1]⟩ (multiReduction (F := Ideal) .add [1] ⟨1, ![a]⟩ E 0x00000000#32 h hφ hacc) hc) hb)

/-- Read at `(p, s)` it is the entry over the sum of its row. -/
theorem normalize_apply (E : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (s : Fin b) :
    normalize E h hφ hacc hc hb (ix2 p s) = Ideal.div (E (ix2 p s)) (∑ k : Fin b, E (ix2 p k)) := by
  show Ideal.div (E (ix2 p s)) (broadcastTo ⟨2, ![a, b]⟩ (shapeCast ⟨2, ![a, 1]⟩
    (multiReduction (F := Ideal) .add [1] ⟨1, ![a]⟩ E 0x00000000#32 h hφ hacc) hc) hb (ix2 p s)) = _
  rw [Cert.Lib.Keepdims.broadcastTo_a1_ab_apply, Cert.Lib.Keepdims.shapeCast_a_a1_apply, Cert.Lib.Keepdims.rowSum_apply]

/-- The whole softmax of a tile's rows, read at `(p, s)`: the softmax weight of entry `s` in row `p`. -/
theorem softmaxTile_apply (T : FVec Ideal ⟨2, ![a, b]⟩ .f32) (h : (⟨2, ![a, b]⟩ : Shape).Reduces [1] ⟨1, ![a]⟩)
    (hφ : FKind.Formats .f32) (hmax : (0xFF800000#32 : BitVec 32) = 0xFF800000#32) (hsum : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (s : Fin b) :
    normalize (expTile T h hφ hmax hc hb) h hφ hsum hc hb (ix2 p s) = softmax (fun k => T (ix2 p k)) s := by
  rw [normalize_apply]
  simp only [expTile_apply]
  rfl

end Cert.Lib.SoftmaxTile

end
-- ==== Proof.AttnSpec.lean ====
/-
  What both programs compute, as two functions of the three argument arrays over the extended reals.

  For a batch `b`, a head `h` and two positions `l`, `s`, the scaled score of two arrays `A`, `B` of shape
  [2, 8, 2048, 64] is `(Σ_d A[b,h,l,d] · B[b,h,s,d]) · 1/8`.  A row `f` of 2048 scores is turned into weights by the
  shifted softmax: with `M = max(-∞, max_s f s)`, the weight at `s` is `exp(f s - M) / Σ_k exp(f k - M)`.

  (`rowMax`, `expShift`, `softmax` below are those row-level expressions.)

  * the attention weights returned are `softmax(score Q Q)[l, s] + softmax(score K K)[l, s]`;
  * the attention output is `Σ_s softmax(score Q K)[l, s] · V[b,h,s,d]`.

  Everything is stated index by index; no law of the extended reals is needed to join the two programs, because
  both evaluate exactly these expressions, with the same order of the two factors and the same operands of each
  sum, maximum, difference and quotient.
-/
import Idealize.ShloMosaic.PureOps.Ideal
import Idealize.ShloMosaic.PureOps.Ideal.Laws
import Idealize.ShloMosaic.Lib.ValueIdx
import proofs.«154308_j19610820674059_1_alg».proof.Proof.LibSoftmaxTile

noncomputable section

open scoped BigOperators

namespace Cert.AttnSpec

open Idealize.ShloMosaic Idealize.ShloMosaic.ValueIdx Cert.Lib.SoftmaxTile

/-- The scale `1/8 = 1/√64`, as the word both programs carry. -/
def eighth : EReal := Ideal.ofBits .f32 0x3E000000#32

/-- The scaled score of row `l` of `A` against row `s` of `B`, in batch `b` and head `h`. -/
def score (A B : (⟨4, ![2, 8, 2048, 64]⟩ : Shape).Idx → EReal) (b : Fin 2) (h : Fin 8) (l s : Fin 2048) : EReal :=
  (∑ d : Fin 64, A (ix4 b h l d) * B (ix4 b h s d)) * eighth

/-- The returned attention weights: the two self-similarity softmaxes added. -/
def attnW (Q K : (⟨4, ![2, 8, 2048, 64]⟩ : Shape).Idx → EReal) (b : Fin 2) (h : Fin 8) (l s : Fin 2048) : EReal :=
  softmax (fun k => score Q Q b h l k) s + softmax (fun k => score K K b h l k) s

/-- The attention output: the softmax of the query-key scores applied to the values. -/
def attnOut (Q K V : (⟨4, ![2, 8, 2048, 64]⟩ : Shape).Idx → EReal) (b : Fin 2) (h : Fin 8) (l : Fin 2048) (d : Fin 64) : EReal :=
  ∑ s : Fin 2048, softmax (fun k => score Q K b h l k) s * V (ix4 b h s d)

end Cert.AttnSpec

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.KernelPay.lean ====
/-
  The two output blocks of a grid point, entry by entry, at the ideal values.

  Write `a` for the 256 query (or key) rows the point works on and `X` for a whole [1, 2048, 64] block.  The score of
  row `r` of `a` against row `s` of `X` is `(Σ_d a[0,r,d] · X[0,s,d]) · 1/8`: the contraction over the 64 features
  into a zero accumulator, then the scale.  The weight block at `(r, s)` adds the softmax weights of two such score
  rows; the output block at `(r, d)` contracts the softmax weights of the query-key score row with column `d` of the
  value block over the 2048 key positions.
-/
import proofs.«154308_j19610820674059_1_alg».proof.Proof.Gen.KernelIdeal.Skeleton
import proofs.«154308_j19610820674059_1_alg».proof.Proof.AttnSpec
import proofs.«154308_j19610820674059_1_alg».proof.Proof.LibSoftmaxTile
import proofs.«154308_j19610820674059_1_alg».proof.Proof.LibMatmul2
import Idealize.ShloMosaic.Lib.ValueLayout

noncomputable section

open scoped BigOperators

namespace Cert.KernelIdeal.Pay

open Cert.KernelIdeal Cert.KernelIdeal.Gen Cert.AttnSpec Cert.Lib.SoftmaxTile
open Idealize.ShloMosaic Idealize.ShloMosaic.ValueIdx

/-- The score of row `r` of the rows `a` against row `s` of the block `X`. -/
def blkScore (a : Vec Ideal S1x256x64 .f32) (X : Vec Ideal S1x2048x64 .f32) (r : Fin 256) (s : Fin 2048) : EReal :=
  (∑ d : Fin 64, a (ix3 (0 : Fin 1) r d) * X (ix3 (0 : Fin 1) s d)) * eighth

/-- A tile of 256 rows scored against all 2048 rows: the contraction into a zero accumulator, scaled. -/
def scoreTile (A : FVec Ideal S256x64 .bf16) (B : FVec Ideal S2048x64 .bf16) : FVec Ideal S256x2048 .f32 :=
  mulf (matmul dot_S256x64_S2048x64_S256x2048_1_1_0_0_n_n none A B (constant S256x2048 .f32 0x00000000#32))
    (broadcast S256x2048 (Scalar.ofBits .f32 0x3E000000#32))

theorem scoreTile_apply (A : FVec Ideal S256x64 .bf16) (B : FVec Ideal S2048x64 .bf16) (r : Fin 256) (s : Fin 2048) :
    scoreTile A B (ix2 r s) = (∑ d : Fin 64, A (ix2 r d) * B (ix2 s d)) * eighth :=
  congrArg (· * eighth) (LibMatmul2.matmul_nt_apply dot_S256x64_S2048x64_S256x2048_1_1_0_0_n_n_wf none A B r s)

/-- The rows, with their leading unit axis dropped. -/
theorem pay3_at (a : Vec Ideal S1x256x64 .f32) (r : Fin 256) (c : Fin 64) :
    k0_pay3 a (ix2 r c) = a (ix3 (0 : Fin 1) r c) :=
  shapeCast_1ab_ab_apply a shapeCasts_S1x256x64_S256x64 r c

/-- A whole block, with its leading unit axis dropped. -/
theorem full_at (X : Vec Ideal S1x2048x64 .f32) (s : Fin 2048) (c : Fin 64) :
    (truncf .bf16 (shapeCast S2048x64 X shapeCasts_S1x2048x64_S2048x64) bitsLt_bf16_f32 : FVec Ideal S2048x64 .bf16) (ix2 s c)
      = X (ix3 (0 : Fin 1) s c) :=
  shapeCast_1ab_ab_apply X shapeCasts_S1x2048x64_S2048x64 s c

theorem rows_at (a : Vec Ideal S1x256x64 .f32) (r : Fin 256) (c : Fin 64) :
    (truncf .bf16 (shapeCast S256x64 a shapeCasts_S1x256x64_S256x64) bitsLt_bf16_f32 : FVec Ideal S256x64 .bf16) (ix2 r c)
      = a (ix3 (0 : Fin 1) r c) :=
  shapeCast_1ab_ab_apply a shapeCasts_S1x256x64_S256x64 r c

/-- The query rows against the whole query block. -/
theorem pay6_at (a : Vec Ideal S1x256x64 .f32) (X : Vec Ideal S1x2048x64 .f32) (r : Fin 256) (s : Fin 2048) :
    k0_pay6 a X (ix2 r s) = blkScore a X r s := by
  show scoreTile (k0_pay3 a) (truncf .bf16 (shapeCast S2048x64 X shapeCasts_S1x2048x64_S2048x64) bitsLt_bf16_f32) (ix2 r s) = _
  rw [scoreTile_apply]
  unfold blkScore
  simp only [pay3_at, full_at]

/-- The key rows against the whole key block. -/
theorem pay7_at (a : Vec Ideal S1x256x64 .f32) (Y : Vec Ideal S1x2048x64 .f32) (r : Fin 256) (s : Fin 2048) :
    k0_pay7 a Y (ix2 r s) = blkScore a Y r s := by
  show scoreTile (truncf .bf16 (shapeCast S256x64 a shapeCasts_S1x256x64_S256x64) bitsLt_bf16_f32)
    (truncf .bf16 (shapeCast S2048x64 Y shapeCasts_S1x2048x64_S2048x64) bitsLt_bf16_f32) (ix2 r s) = _
  rw [scoreTile_apply]
  unfold blkScore
  simp only [rows_at, full_at]

/-- The query rows against the whole key block, shifted by the row maximum and exponentiated. -/
theorem pay8_at (a : Vec Ideal S1x256x64 .f32) (Y : Vec Ideal S1x2048x64 .f32) (r : Fin 256) (s : Fin 2048) :
    k0_pay8 a Y (ix2 r s) = expShift (fun k => blkScore a Y r k) s := by
  show expTile (scoreTile (k0_pay3 a) (truncf .bf16 (shapeCast S2048x64 Y shapeCasts_S1x2048x64_S2048x64) bitsLt_bf16_f32))
    reduces_S256x2048_S256 (.inl rfl) rfl shapeCasts_S256_S256x1 broadcasts_S256x1_S256x2048 (ix2 r s) = _
  rw [expTile_apply]
  simp only [scoreTile_apply, pay3_at, full_at]
  rfl

/-- The attention-weight payload at `(u, r, s)`: the softmax weights of the two score rows, added. -/
theorem pay1_at (T1 T2 : FVec Ideal S256x2048 .f32) (u : Fin 1) (r : Fin 256) (s : Fin 2048) :
    k0_pay1 T1 T2 (ix3 u r s) = softmax (fun k => T1 (ix2 r k)) s + softmax (fun k => T2 (ix2 r k)) s := by
  unfold k0_pay1
  refine (shapeCast_ab_1ab_apply _ shapeCasts_S256x2048_S1x256x2048 u r s).trans ?_
  show normalize (expTile T1 reduces_S256x2048_S256 (.inl rfl) rfl shapeCasts_S256_S256x1 broadcasts_S256x1_S256x2048)
      reduces_S256x2048_S256 (.inl rfl) rfl shapeCasts_S256_S256x1 broadcasts_S256x1_S256x2048 (ix2 r s)
    + normalize (expTile T2 reduces_S256x2048_S256 (.inl rfl) rfl shapeCasts_S256_S256x1 broadcasts_S256x1_S256x2048)
      reduces_S256x2048_S256 (.inl rfl) rfl shapeCasts_S256_S256x1 broadcasts_S256x1_S256x2048 (ix2 r s) = _
  rw [softmaxTile_apply, softmaxTile_apply]

/-- The attention-output payload at `(u, r, d)`: the normalized exponentials contracted with the value block. -/
theorem pay2_at (Vb : FVec Ideal S2048x64 .bf16) (E : FVec Ideal S256x2048 .f32) (u : Fin 1) (r : Fin 256) (d : Fin 64) :
    k0_pay2 Vb E (ix3 u r d) = ∑ s : Fin 2048, Ideal.div (E (ix2 r s)) (∑ k : Fin 2048, E (ix2 r k)) * Vb (ix2 s d) := by
  unfold k0_pay2
  refine (shapeCast_ab_1ab_apply _ shapeCasts_S256x64_S1x256x64 u r d).trans ?_
  refine (LibMatmul2.matmul_nn_apply dot_S256x2048_S2048x64_S256x64_1_0_0_1_n_n_wf none
    (truncf .bf16 (normalize E reduces_S256x2048_S256 (.inl rfl) rfl shapeCasts_S256_S256x1 broadcasts_S256x1_S256x2048) bitsLt_bf16_f32)
    Vb r d).trans ?_
  refine Finset.sum_congr rfl fun s _ => congrArg (· * Vb (ix2 s d)) ?_
  exact normalize_apply E reduces_S256x2048_S256 (.inl rfl) rfl shapeCasts_S256_S256x1 broadcasts_S256x1_S256x2048 r s

/-- The attention-weight block of a point, entry by entry. -/
theorem weight_block_at (a a' : Vec Ideal S1x256x64 .f32) (X Y : Vec Ideal S1x2048x64 .f32) (u : Fin 1) (r : Fin 256) (s : Fin 2048) :
    k0_pay1 (k0_pay6 a X) (k0_pay7 a' Y) (ix3 u r s)
      = softmax (fun k => blkScore a X r k) s + softmax (fun k => blkScore a' Y r k) s := by
  rw [pay1_at]
  simp only [pay6_at, pay7_at]

/-- The attention-output block of a point, entry by entry. -/
theorem out_block_at (a : Vec Ideal S1x256x64 .f32) (Y Z : Vec Ideal S1x2048x64 .f32) (u : Fin 1) (r : Fin 256) (d : Fin 64) :
    k0_pay2 (k0_pay5 Z) (k0_pay8 a Y) (ix3 u r d)
      = ∑ s : Fin 2048, softmax (fun k => blkScore a Y r k) s * Z (ix3 (0 : Fin 1) s d) := by
  rw [pay2_at]
  refine Finset.sum_congr rfl fun s _ => ?_
  simp only [pay8_at]
  exact congrArg (softmax (fun k => blkScore a Y r k) s * ·) (full_at Z s d)

end Cert.KernelIdeal.Pay

end
-- ==== Proof.KernelValue.lean ====
/-
  The kernel's two arrays after the region, as functions of the three arrays the region finds.

  The region's arrays are the arguments with batch and head merged: [16, 2048, 64].  Point `t` of the 16 × 8 grid
  works on group `g = t / 8` and on the 256 rows `256·(t % 8) …`; it reads the whole [1, 2048, 64] blocks of group
  `g` of the three inputs and writes block `(g, t % 8, 0)` of each output.  Entry by entry each block it writes is a
  block of one whole-array function, and the 128 blocks tile the arrays, so each output array ends holding that
  function.
-/
import proofs.«154308_j19610820674059_1_alg».proof.Proof.Gen.KernelIdeal.Frame
import proofs.«154308_j19610820674059_1_alg».proof.Proof.Pieces
import proofs.«154308_j19610820674059_1_alg».proof.Proof.KernelPay
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.AttnValue

open Cert.KernelIdeal Cert.KernelIdeal.Gen Cert.AttnSpec Cert.Lib.SoftmaxTile Cert.KernelIdeal.Pay Cert.KernelIdeal.Pieces
open Idealize.ShloMosaic.ValueIdx

/-! ## The specification over the merged arrays -/

/-- The scaled score of row `l` of `A` against row `s` of `B` in group `g`. -/
def score3 (A B : S16x2048x64.Idx → EReal) (g : Fin 16) (l s : Fin 2048) : EReal :=
  (∑ d : Fin 64, A (ix3 g l d) * B (ix3 g s d)) * eighth

/-- The attention weights over the merged arrays. -/
def weights3 (Q K : S16x2048x64.Idx → EReal) (g : Fin 16) (l s : Fin 2048) : EReal :=
  softmax (fun k => score3 Q Q g l k) s + softmax (fun k => score3 K K g l k) s

/-- The attention output over the merged arrays. -/
def output3 (Q K V : S16x2048x64.Idx → EReal) (g : Fin 16) (l : Fin 2048) (d : Fin 64) : EReal :=
  ∑ s : Fin 2048, softmax (fun k => score3 Q K g l k) s * V (ix3 g s d)

/-- The weight array as one function of its index. -/
def weightsArr (Q K : S16x2048x64.Idx → EReal) : S16x2048x2048.Idx → EReal := fun i => weights3 Q K (i 0) (i 1) (i 2)

/-- The output array as one function of its index. -/
def outputArr (Q K V : S16x2048x64.Idx → EReal) : S16x2048x64.Idx → EReal := fun i => output3 Q K V (i 0) (i 1) (i 2)

/-! ## A point's blocks, entry by entry, over variables -/

/-- The rows a point works on, read at an entry: row `o + r` of the block, when the rows start at `o`. -/
theorem rows_entry (i : grid0.Coords) (x : Vec Ideal S1x2048x64 .f32) (o : ℕ) (ho : k0_off1 i = ![0, o, 0])
    (r : Fin 256) (d : Fin 64) (hlt : o + r.val < 2048) :
    rows i x (ix3 (0 : Fin 1) r d) = x (ix3 (0 : Fin 1) ⟨o + r.val, hlt⟩ d) := by
  show x ((Rect.unit (s := S1x2048x64) (k0_off1 i) S1x256x64.size (k0_off1_inb i)).emb (ix3 (0 : Fin 1) r d)) = _
  refine congrArg x (funext fun a => Fin.ext ?_)
  match a with
  | ⟨0, _⟩ => show k0_off1 i 0 + 1 * 0 = 0; rw [ho]; rfl
  | ⟨1, _⟩ => show k0_off1 i 1 + 1 * r.val = o + r.val; rw [ho]; show o + 1 * r.val = _; omega
  | ⟨2, _⟩ => show k0_off1 i 2 + 1 * d.val = d.val; rw [ho]; show 0 + 1 * d.val = _; omega

/-- The score of a row of the point's rows against a row of the whole block is the merged arrays' score. -/
theorem blkScore_eq (A B : S16x2048x64.Idx → EReal) (g : Fin 16) (a : Vec Ideal S1x256x64 .f32) (X : Vec Ideal S1x2048x64 .f32)
    (o : ℕ) (ho : o + 256 ≤ 2048)
    (ha : ∀ (r : Fin 256) (d : Fin 64), a (ix3 (0 : Fin 1) r d) = A (ix3 g ⟨o + r.val, by have := r.isLt; omega⟩ d))
    (hX : ∀ (s : Fin 2048) (d : Fin 64), X (ix3 (0 : Fin 1) s d) = B (ix3 g s d)) (r : Fin 256) (s : Fin 2048) :
    blkScore a X r s = score3 A B g ⟨o + r.val, by have := r.isLt; omega⟩ s := by
  unfold blkScore score3
  simp only [ha, hX]

/-! ## The grid: where each point reads and writes -/

/-- The printed index maps and the rows' offset, decided over the 128 points: point `t` is in group `t / 8` and works on
    the rows from `256 · (t % 8)`. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ k0_off1 (grid0.coords t) = ![0, 256 * (t.val % 8), 0] :=
  (by decide +kernel : ∀ t : Fin grid0.N, _)

variable (m : (ℓ : Loc nD τ sig) → Buf (Elt Ideal) ℓ) (ρ : Dev nD → PrngReg)

/-- Input window 0's block at point `t` is group `t / 8` of its array. -/
theorem iblk0_entry (c : Dev nD) (t : Fin cfg0.N) (s : Fin 2048) (d : Fin 64) :
    iblk m c 0 t (ix3 (0 : Fin 1) s d) = V m c main_v0 (ix3 ⟨t.val / 8, by have := t.isLt; have : cfg0.N = 128 := N_0; omega⟩ s d) := by
  obtain ⟨⟨e0, e1, e2⟩, -⟩ := idx_facts t
  show V m c main_v0 (((cfg0.win 0).blk t).view.emb (ix3 (0 : Fin 1) s d)) = _
  refine congrArg (V m c main_v0) (funext fun a => Fin.ext ?_)
  match a with
  | ⟨0, _⟩ => show win0_0.index t (0 : Fin 3) * 1 + 1 * 0 = t.val / 8; omega
  | ⟨1, _⟩ => show win0_0.index t (1 : Fin 3) * 2048 + 1 * s.val = s.val; omega
  | ⟨2, _⟩ => show win0_0.index t (2 : Fin 3) * 64 + 1 * d.val = d.val; omega

/-- Input window 1's block at point `t` is group `t / 8` of its array. -/
theorem iblk1_entry (c : Dev nD) (t : Fin cfg0.N) (s : Fin 2048) (d : Fin 64) :
    iblk m c 1 t (ix3 (0 : Fin 1) s d) = V m c main_v1 (ix3 ⟨t.val / 8, by have := t.isLt; have : cfg0.N = 128 := N_0; omega⟩ s d) := by
  obtain ⟨-, ⟨e0, e1, e2⟩, -⟩ := idx_facts t
  show V m c main_v1 (((cfg0.win 1).blk t).view.emb (ix3 (0 : Fin 1) s d)) = _
  refine congrArg (V m c main_v1) (funext fun a => Fin.ext ?_)
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ => show win0_1.index t (2 : Fin 3) * 64 + 1 * d.val = d.val; omega

/-- Input window 2's block at point `t` is group `t / 8` of its array. -/
theorem iblk2_entry (c : Dev nD) (t : Fin cfg0.N) (s : Fin 2048) (d : Fin 64) :
    iblk m c 2 t (ix3 (0 : Fin 1) s d) = V m c main_v2 (ix3 ⟨t.val / 8, by have := t.isLt; have : cfg0.N = 128 := N_0; omega⟩ s d) := by
  obtain ⟨-, -, ⟨e0, e1, e2⟩, -⟩ := idx_facts t
  show V m c main_v2 (((cfg0.win 2).blk t).view.emb (ix3 (0 : Fin 1) s d)) = _
  refine congrArg (V m c main_v2) (funext fun a => Fin.ext ?_)
  match a with
  | ⟨0, _⟩ => show win0_2.index t (0 : Fin 3) * 1 + 1 * 0 = t.val / 8; omega
  | ⟨1, _⟩ => show win0_2.index t (1 : Fin 3) * 2048 + 1 * s.val = s.val; omega
  | ⟨2, _⟩ => show win0_2.index t (2 : Fin 3) * 64 + 1 * d.val = d.val; omega

/-! ## What a point writes back -/

/-- The weight block of a point, entry by entry, over variables: the merged arrays' weights at the point's group and rows. -/
theorem weight_entry (Q K : S16x2048x64.Idx → EReal) (g : Fin 16) (o : ℕ) (ho : o + 256 ≤ 2048)
    (a a' : Vec Ideal S1x256x64 .f32) (X Y : Vec Ideal S1x2048x64 .f32)
    (ha : ∀ (r : Fin 256) (d : Fin 64), a (ix3 (0 : Fin 1) r d) = Q (ix3 g ⟨o + r.val, by have := r.isLt; omega⟩ d))
    (ha' : ∀ (r : Fin 256) (d : Fin 64), a' (ix3 (0 : Fin 1) r d) = K (ix3 g ⟨o + r.val, by have := r.isLt; omega⟩ d))
    (hX : ∀ (s : Fin 2048) (d : Fin 64), X (ix3 (0 : Fin 1) s d) = Q (ix3 g s d))
    (hY : ∀ (s : Fin 2048) (d : Fin 64), Y (ix3 (0 : Fin 1) s d) = K (ix3 g s d))
    (u : Fin 1) (r : Fin 256) (s : Fin 2048) :
    k0_pay1 (k0_pay6 a X) (k0_pay7 a' Y) (ix3 u r s) = weights3 Q K g ⟨o + r.val, by have := r.isLt; omega⟩ s := by
  rw [weight_block_at]
  unfold weights3
  simp only [blkScore_eq Q Q g a X o ho ha hX, blkScore_eq K K g a' Y o ho ha' hY]

/-- The output block of a point, entry by entry, over variables. -/
theorem out_entry (Q K Vv : S16x2048x64.Idx → EReal) (g : Fin 16) (o : ℕ) (ho : o + 256 ≤ 2048)
    (a : Vec Ideal S1x256x64 .f32) (Y Z : Vec Ideal S1x2048x64 .f32)
    (ha : ∀ (r : Fin 256) (d : Fin 64), a (ix3 (0 : Fin 1) r d) = Q (ix3 g ⟨o + r.val, by have := r.isLt; omega⟩ d))
    (hY : ∀ (s : Fin 2048) (d : Fin 64), Y (ix3 (0 : Fin 1) s d) = K (ix3 g s d))
    (hZ : ∀ (s : Fin 2048) (d : Fin 64), Z (ix3 (0 : Fin 1) s d) = Vv (ix3 g s d))
    (u : Fin 1) (r : Fin 256) (d : Fin 64) :
    k0_pay2 (k0_pay5 Z) (k0_pay8 a Y) (ix3 u r d) = output3 Q K Vv g ⟨o + r.val, by have := r.isLt; omega⟩ d := by
  rw [out_block_at]
  unfold output3
  simp only [blkScore_eq Q K g a Y o ho ha hY, hZ]

/-- WHAT POINT `t` WRITES BACK through the weight window is block `t` of the weight array of the merged inputs. -/
theorem flushed_weights (c : Dev nD) (t : Fin cfg0.N) :
    (dats m 0 c).flushed 4 t = ((cfg0.win 4).blk t).view.read (Elt Ideal) (weightsArr (V m c main_v0) (V m c main_v1)) := by
  show (cfg0.win 4).cut (grid0.coords t) ((dats m 0 c).after 4 t) = _
  rw [after0_4]
  unfold outsAt0
  dsimp only
  rw [weight_block]
  have hN : cfg0.N = 128 := N_0
  have ht := t.isLt
  obtain ⟨-, -, -, -, ⟨e0, e1, e2⟩, eo⟩ := idx_facts t
  funext y
  obtain ⟨u, r, s, rfl⟩ : ∃ (u : Fin 1) (r : Fin 256) (s : Fin 2048), y = ix3 u r s := ⟨y 0, y 1, y 2, eq_ix3 y⟩
  have hr := r.isLt
  have hemb : ((cfg0.win 4).blk t).view.emb (ix3 u r s)
      = ix3 (⟨t.val / 8, by omega⟩ : Fin 16) (⟨256 * (t.val % 8) + r.val, by omega⟩ : Fin 2048) s :=
    funext fun a => Fin.ext (by
      match a with
      | ⟨0, _⟩ => show win0_4.index t (0 : Fin 3) * 1 + 1 * u.val = t.val / 8; have := u.isLt; omega
      | ⟨1, _⟩ => show win0_4.index t (1 : Fin 3) * 256 + 1 * r.val = 256 * (t.val % 8) + r.val; omega
      | ⟨2, _⟩ => show win0_4.index t (2 : Fin 3) * 2048 + 1 * s.val = s.val; omega)
  rw [View.read_apply, hemb]
  refine (weight_entry (V m c main_v0) (V m c main_v1) ⟨t.val / 8, by omega⟩ (256 * (t.val % 8)) (by omega)
    (rows (grid0.coords t) (iblk m c 0 t)) (rows (grid0.coords t) (iblk m c 1 t)) (iblk m c 0 t) (iblk m c 1 t)
    (fun r' d' => ?_) (fun r' d' => ?_) (fun s' d' => iblk0_entry m c t s' d') (fun s' d' => iblk1_entry m c t s' d') u r s).trans ?_
  · have := r'.isLt
    rw [rows_entry (grid0.coords t) (iblk m c 0 t) (256 * (t.val % 8)) eo r' d' (by omega)]
    exact iblk0_entry m c t _ d'
  · have := r'.isLt
    rw [rows_entry (grid0.coords t) (iblk m c 1 t) (256 * (t.val % 8)) eo r' d' (by omega)]
    exact iblk1_entry m c t _ d'
  · rfl

/-- WHAT POINT `t` WRITES BACK through the output window is block `t` of the output array of the merged inputs. -/
theorem flushed_output (c : Dev nD) (t : Fin cfg0.N) :
    (dats m 0 c).flushed 3 t
      = ((cfg0.win 3).blk t).view.read (Elt Ideal) (outputArr (V m c main_v0) (V m c main_v1) (V m c main_v2)) := by
  show (cfg0.win 3).cut (grid0.coords t) ((dats m 0 c).after 3 t) = _
  rw [after0_3]
  unfold outsAt0
  dsimp only
  rw [out_block]
  have hN : cfg0.N = 128 := N_0
  have ht := t.isLt
  obtain ⟨-, -, -, ⟨e0, e1, e2⟩, -, eo⟩ := idx_facts t
  funext y
  obtain ⟨u, r, d, rfl⟩ : ∃ (u : Fin 1) (r : Fin 256) (d : Fin 64), y = ix3 u r d := ⟨y 0, y 1, y 2, eq_ix3 y⟩
  have hr := r.isLt
  have hemb : ((cfg0.win 3).blk t).view.emb (ix3 u r d)
      = ix3 (⟨t.val / 8, by omega⟩ : Fin 16) (⟨256 * (t.val % 8) + r.val, by omega⟩ : Fin 2048) d :=
    funext fun a => Fin.ext (by
      match a with
      | ⟨0, _⟩ => show win0_3.index t (0 : Fin 3) * 1 + 1 * u.val = t.val / 8; have := u.isLt; omega
      | ⟨1, _⟩ => show win0_3.index t (1 : Fin 3) * 256 + 1 * r.val = 256 * (t.val % 8) + r.val; omega
      | ⟨2, _⟩ => show win0_3.index t (2 : Fin 3) * 64 + 1 * d.val = d.val; omega)
  rw [View.read_apply, hemb]
  refine (out_entry (V m c main_v0) (V m c main_v1) (V m c main_v2) ⟨t.val / 8, by omega⟩ (256 * (t.val % 8)) (by omega)
    (rows (grid0.coords t) (iblk m c 0 t)) (iblk m c 1 t) (iblk m c 2 t)
    (fun r' d' => ?_) (fun s' d' => iblk1_entry m c t s' d') (fun s' d' => iblk2_entry m c t s' d') u r d).trans ?_
  · have := r'.isLt
    rw [rows_entry (grid0.coords t) (iblk m c 0 t) (256 * (t.val % 8)) eo r' d' (by omega)]
    exact iblk0_entry m c t _ d'
  · rfl

/-! ## The blocks tile the arrays -/

/-- Every group and every block of 256 rows is some point's. -/
theorem point_of (g : Fin 16) (q : Fin 8) : ∃ t : Fin cfg0.N, t.val = 8 * g.val + q.val :=
  ⟨⟨8 * g.val + q.val, by have := g.isLt; have := q.isLt; have : cfg0.N = 128 := N_0; omega⟩, rfl⟩

/-- An index of the weight array is in point `t`'s block iff each coordinate is in the block's range on its axis. -/
theorem mem_blk_weights (t : Fin cfg0.N) (i : S16x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v3_1).slice (win0_4.rect t)).set ↔ _
  rw [View.set_slice_whole, Rect.mem_set_unit]
  exact Iff.rfl

/-- The same for the output array. -/
theorem mem_blk_output (t : Fin cfg0.N) (i : S16x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v3_0).slice (win0_3.rect t)).set ↔ _
  rw [View.set_slice_whole, Rect.mem_set_unit]
  exact Iff.rfl

/-- Every index of the weight array is in the block of the point of its group and its block of rows. -/
theorem cover_weights (i : S16x2048x2048.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 2048 := (i 2).isLt
  obtain ⟨t, ht⟩ := point_of ⟨(i 0).val, h0⟩ ⟨(i 1).val / 256, by omega⟩
  have ht' : t.val = 8 * (i 0).val + (i 1).val / 256 := ht
  obtain ⟨-, -, -, -, ⟨e0, e1, e2⟩, -⟩ := idx_facts t
  refine ⟨t, flush0_4 t, ?_⟩
  rw [mem_blk_weights]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- Every index of the output array is in the block of the point of its group and its block of rows. -/
theorem cover_output (i : S16x2048x64.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 64 := (i 2).isLt
  obtain ⟨t, ht⟩ := point_of ⟨(i 0).val, h0⟩ ⟨(i 1).val / 256, by omega⟩
  have ht' : t.val = 8 * (i 0).val + (i 1).val / 256 := ht
  obtain ⟨-, -, -, ⟨e0, e1, e2⟩, -, -⟩ := idx_facts t
  refine ⟨t, flush0_3 t, ?_⟩
  rw [mem_blk_output]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE WEIGHT ARRAY after the region: the weights of the merged inputs. -/
theorem final_weights (c : Dev nD) :
    (dats m 0 c).arrAt 4 cfg0.N = weightsArr (V m c main_v0) (V m c main_v1) :=
  (dats m 0 c).arrAt_eq_of_cover 4 (weightsArr (V m c main_v0) (V m c main_v1)) (fun t _ => flushed_weights m c t) cover_weights

/-- THE OUTPUT ARRAY after the region: the output of the merged inputs. -/
theorem final_output (c : Dev nD) :
    (dats m 0 c).arrAt 3 cfg0.N = outputArr (V m c main_v0) (V m c main_v1) (V m c main_v2) :=
  (dats m 0 c).arrAt_eq_of_cover 3 (outputArr (V m c main_v0) (V m c main_v1) (V m c main_v2)) (fun t _ => flushed_output m c t) cover_output

/-! ## The host lines around the region -/

/-- The region finds argument 0 with batch and head merged. -/
theorem V_v0 (c : Dev nD) : (V m c main_v0 : S16x2048x64.Idx → EReal)
    = shapeCast S16x2048x64 (m ((c : Thread nD τ).loc main_arg0)) shapeCasts_S2x8x2048x64_S16x2048x64 := by
  show StableHlo.after hostOps0 (fun b => m (c, b)) (Proc.devRef .tc main_v0) = _
  after_results
  rfl

/-- The region finds argument 1 with batch and head merged. -/
theorem V_v1 (c : Dev nD) : (V m c main_v1 : S16x2048x64.Idx → EReal)
    = shapeCast S16x2048x64 (m ((c : Thread nD τ).loc main_arg1)) shapeCasts_S2x8x2048x64_S16x2048x64 := by
  show StableHlo.after hostOps0 (fun b => m (c, b)) (Proc.devRef .tc main_v1) = _
  after_results
  rfl

/-- The region finds argument 2 with batch and head merged. -/
theorem V_v2 (c : Dev nD) : (V m c main_v2 : S16x2048x64.Idx → EReal)
    = shapeCast S16x2048x64 (m ((c : Thread nD τ).loc main_arg2)) shapeCasts_S2x8x2048x64_S16x2048x64 := by
  show StableHlo.after hostOps0 (fun b => m (c, b)) (Proc.devRef .tc main_v2) = _
  after_results
  rfl

/-- The first result: the output array, batch and head split again. -/
theorem tail_output (c : Dev nD) :
    Pipeline.afterTail₀ cfgs (dats m) 0 (V0 m) [hostOps1] c main_v4
      = shapeCast S2x8x2048x64 (outputArr (V m c main_v0) (V m c main_v1) (V m c main_v2)) shapeCasts_S16x2048x64_S2x8x2048x64 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3_0)
      = outputArr (V m c main_v0) (V m c main_v1) (V m c main_v2) :=
    (Pipeline.withArrays_arr spec0 launch0.win.arr_inj c (V0 m c) (fun w => (dats m 0 c).arrAt w cfg0.N) 3).trans (final_output m c)
  rw [e]
  rfl

/-- The second result: the weight array, batch and head split again. -/
theorem tail_weights (c : Dev nD) :
    Pipeline.afterTail₀ cfgs (dats m) 0 (V0 m) [hostOps1] c main_v5
      = shapeCast S2x8x2048x2048 (weightsArr (V m c main_v0) (V m c main_v1)) shapeCasts_S16x2048x2048_S2x8x2048x2048 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3_1)
      = weightsArr (V m c main_v0) (V m c main_v1) :=
    (Pipeline.withArrays_arr spec0 launch0.win.arr_inj c (V0 m c) (fun w => (dats m 0 c).arrAt w cfg0.N) 4).trans (final_weights m c)
  rw [e]
  rfl

/-! ## The run, read -/

/-- An argument with batch and head merged. -/
abbrev merged (x : S2x8x2048x64.Idx → EReal) : S16x2048x64.Idx → EReal :=
  shapeCast S16x2048x64 x shapeCasts_S2x8x2048x64_S16x2048x64

/-- The first result as a function of the argument arrays. -/
def outRes (c : Dev nD) : Buf (Elt Ideal) ((c : Thread nD τ).loc main_v4) :=
  shapeCast S2x8x2048x64 (outputArr (merged (m ((c : Thread nD τ).loc main_arg0))) (merged (m ((c : Thread nD τ).loc main_arg1)))
    (merged (m ((c : Thread nD τ).loc main_arg2)))) shapeCasts_S16x2048x64_S2x8x2048x64

/-- The second result as a function of the argument arrays. -/
def weightRes (c : Dev nD) : Buf (Elt Ideal) ((c : Thread nD τ).loc main_v5) :=
  shapeCast S2x8x2048x2048 (weightsArr (merged (m ((c : Thread nD τ).loc main_arg0))) (merged (m ((c : Thread nD τ).loc main_arg1))))
    shapeCasts_S16x2048x2048_S2x8x2048x2048

/-- Every weakly fair execution of the idealized kernel's @main terminates with its two results at those functions of
    the arguments, and the arguments unchanged. -/
theorem run : θ_run defs (onTc (τ := τ) (main (F := Ideal))) ⟨m, fun _ => 0, ρ⟩ fun r => ∀ c : Dev nD,
      r.2.mem ((c : Thread nD τ).loc main_v4) = outRes m c
      ∧ r.2.mem ((c : Thread nD τ).loc main_v5) = weightRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans
        ((tail_output m c).trans (by unfold outRes merged; rw [V_v0, V_v1, V_v2])),
      ((h c).2 main_v5 (Pipeline.mem_restRefs_of main_v5 (by decide) (by decide))).trans
        ((tail_weights m c).trans (by unfold weightRes merged; rw [V_v0, V_v1])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.AttnValue

end
-- ==== Proof.LibLaneMax4.lean ====
/-
  The host's maximum along the last axis of an `[a, b, c, d]` array, read at an entry `(p, q, r)` of the result, at
  the ideal values: the fold of `max` from the initial value over the `d` entries `x (p, q, r, k)` of that lane, in
  any order.  Stated with the lane's entries written `x (ix4 p q r k)`, so that it meets a kernel's lane maximum of
  the tile holding the same entries as one fold.
-/
import Idealize.ShloMosaic.Lib.ValueIdx
import Idealize.ShloMosaic.PureOps.Ideal.Laws

noncomputable section

namespace Cert.Lib.LaneMax4

open Idealize.ShloMosaic Idealize.ShloMosaic.ValueIdx

/-- The host's maximum over axis 3 of an `[a, b, c, d]` array, at `(p, q, r)`: the fold of `max` from the initial
    value over the lane's `d` entries. -/
theorem hostLaneMax4_apply {a b c d : ℕ} {u : Shape} (x : (⟨4, ![a, b, c, d]⟩ : Shape).Idx → Ideal .f32)
    (init : u.Idx → Ideal .f32) (h' : (⟨4, ![a, b, c, d]⟩ : Shape).ReducesTo [3] ⟨3, ![a, b, c]⟩)
    (h : (⟨4, ![a, b, c, d]⟩ : Shape).Reduces [3] ⟨3, ![a, b, c]⟩) (hu : 0 < u.numel) (p : Fin a) (q : Fin b) (r : Fin c) :
    Host.reduce (FloatOps.maximumf (F := Ideal) (φ := .f32)) x init h' hu (ix3 p q r)
      = (Finset.univ : Finset (Fin d)).fold max (init (Shape.Idx.first hu)) (fun k => x (ix4 p q r k)) := by
  refine (Host.reduce_eq_fold_single (FloatOps.maximumf (F := Ideal) (φ := .f32)) x init h' h hu (ix3 p q r)).trans ?_
  refine congrArg (fun g => (Finset.univ : Finset (Fin d)).fold max (init (Shape.Idx.first hu)) g) (funext fun k => ?_)
  exact congrArg x (funext fun ax => Fin.ext (by match ax with | ⟨0, _⟩ => rfl | ⟨1, _⟩ => rfl | ⟨2, _⟩ => rfl | ⟨3, _⟩ => rfl))

end Cert.Lib.LaneMax4

end
-- ==== Proof.RefSpec.lean ====
/-
  The reference computes the specification.

  Read one operation at a time, the reference's two results are, entry by entry, the attention weights and the
  attention output of `AttnSpec`: each of its three score tensors is a batched contraction over the 64 features
  scaled by 1/8; each softmax is a maximum along the last axis (started from -∞ and taken once more against -∞), a
  shift, an exponential, a sum along the last axis started from zero, and a quotient; the weights add two of them,
  and the output contracts the third with the values over the 2048 key positions.
-/
import proofs.«154308_j19610820674059_1_alg».proof.Proof.Gen.ReferenceIdeal.Read
import proofs.«154308_j19610820674059_1_alg».proof.Proof.AttnSpec
import proofs.«154308_j19610820674059_1_alg».proof.Proof.LibLaneMax4

noncomputable section

open scoped BigOperators

namespace Cert.ReferenceIdeal.RefSpec

open Cert.ReferenceIdeal Cert.ReferenceIdeal.Gen Cert.ReferenceIdeal.Read Cert.AttnSpec
open Idealize.ShloMosaic Idealize.ShloMosaic.ValueIdx Cert.Lib.SoftmaxTile

/-- An argument array at the ideal values. -/
abbrev Arr := (⟨S2x8x2048x64, .f32⟩ : BufTy).Contents (Elt Ideal)

/-! ### The scores of `x0` against `x0`, and their softmax -/

/-- The scaled product read at an entry is the score. -/
theorem score_qq (x0 : Arr) (b : Fin 2) (h : Fin 8) (l s : Fin 2048) :
    val_main_v5 (F := Ideal) x0 (ix4 b h l s) = score x0 x0 b h l s := by
  rw [val_main_v5_apply, val_main_v3_apply, val_main_v4_apply, val_main_cst_0_apply]
  have el : ∀ k, lidx_main_v3 (ix4 b h l s) k = ix4 b h l k := fun k => funext fun a => by match a with | ⟨0, _⟩ => rfl | ⟨1, _⟩ => rfl | ⟨2, _⟩ => rfl | ⟨3, _⟩ => rfl
  have er : ∀ k, ridx_main_v3 (ix4 b h l s) k = ix4 b h s k := fun k => funext fun a => by match a with | ⟨0, _⟩ => rfl | ⟨1, _⟩ => rfl | ⟨2, _⟩ => rfl | ⟨3, _⟩ => rfl
  simp only [el, er]
  rfl

/-- The row's maximum. -/
theorem rowMax_qq (x0 : Arr) (b : Fin 2) (h : Fin 8) (l : Fin 2048) :
    val_main_v11 (F := Ideal) x0 (ix3 b h l) = rowMax (fun k => score x0 x0 b h l k) := by
  rw [val_main_v11_apply, val_main_v10_apply, val_main_cst_3_apply]
  unfold val_main_v9
  rw [Cert.Lib.LaneMax4.hostLaneMax4_apply (val_main_v5 (F := Ideal) x0) (val_main_cst_2 (F := Ideal))
    reducesTo_S2x8x2048x2048_S2x8x2048_d3 (by decide) h_S_ b h l]
  simp only [score_qq]
  rfl

/-- An entry shifted by its row's maximum and exponentiated. -/
theorem expShift_qq (x0 : Arr) (b : Fin 2) (h : Fin 8) (l s : Fin 2048) :
    val_main_v15 (F := Ideal) x0 (ix4 b h l s) = expShift (fun k => score x0 x0 b h l k) s := by
  rw [val_main_v15_apply, val_main_v14_apply, val_main_v13_apply, val_main_v12_apply]
  have e : idx_main_v12 (idx_main_v13 (ix4 b h l s)) = ix3 b h l := funext fun a => by match a with | ⟨0, _⟩ => rfl | ⟨1, _⟩ => rfl | ⟨2, _⟩ => rfl
  rw [e, rowMax_qq, score_qq]
  rfl

/-- The row's sum of exponentials. -/
theorem expSum_qq (x0 : Arr) (b : Fin 2) (h : Fin 8) (l : Fin 2048) :
    val_main_v16 (F := Ideal) x0 (ix3 b h l) = ∑ k : Fin 2048, expShift (fun k => score x0 x0 b h l k) k := by
  rw [val_main_v16_apply, val_main_cst_4_apply]
  have e : ∀ k, idx_main_v16 (ix3 b h l) k = ix4 b h l k := fun k => funext fun a => by match a with | ⟨0, _⟩ => rfl | ⟨1, _⟩ => rfl | ⟨2, _⟩ => rfl | ⟨3, _⟩ => rfl
  simp only [e, expShift_qq]
  show Ideal.ofBits .f32 0x00000000#32 + _ = _
  rw [Ideal.ofBits_zero_f32, zero_add]

/-- The softmax weight. -/
theorem softmax_qq (x0 : Arr) (b : Fin 2) (h : Fin 8) (l s : Fin 2048) :
    val_main_v19 (F := Ideal) x0 (ix4 b h l s) = softmax (fun k => score x0 x0 b h l k) s := by
  rw [val_main_v19_apply, val_main_v18_apply, val_main_v17_apply]
  have e : idx_main_v17 (idx_main_v18 (ix4 b h l s)) = ix3 b h l := funext fun a => by match a with | ⟨0, _⟩ => rfl | ⟨1, _⟩ => rfl | ⟨2, _⟩ => rfl
  rw [e, expSum_qq, expShift_qq]
  rfl

/-! ### The scores of `x1` against `x1`, and their softmax -/

/-- The scaled product read at an entry is the score. -/
theorem score_kk (x1 : Arr) (b : Fin 2) (h : Fin 8) (l s : Fin 2048) :
    val_main_v8 (F := Ideal) x1 (ix4 b h l s) = score x1 x1 b h l s := by
  rw [val_main_v8_apply, val_main_v6_apply, val_main_v7_apply, val_main_cst_1_apply]
  have el : ∀ k, lidx_main_v6 (ix4 b h l s) k = ix4 b h l k := fun k => funext fun a => by match a with | ⟨0, _⟩ => rfl | ⟨1, _⟩ => rfl | ⟨2, _⟩ => rfl | ⟨3, _⟩ => rfl
  have er : ∀ k, ridx_main_v6 (ix4 b h l s) k = ix4 b h s k := fun k => funext fun a => by match a with | ⟨0, _⟩ => rfl | ⟨1, _⟩ => rfl | ⟨2, _⟩ => rfl | ⟨3, _⟩ => rfl
  simp only [el, er]
  rfl

/-- The row's maximum. -/
theorem rowMax_kk (x1 : Arr) (b : Fin 2) (h : Fin 8) (l : Fin 2048) :
    val_main_v22 (F := Ideal) x1 (ix3 b h l) = rowMax (fun k => score x1 x1 b h l k) := by
  rw [val_main_v22_apply, val_main_v21_apply, val_main_cst_6_apply]
  unfold val_main_v20
  rw [Cert.Lib.LaneMax4.hostLaneMax4_apply (val_main_v8 (F := Ideal) x1) (val_main_cst_5 (F := Ideal))
    reducesTo_S2x8x2048x2048_S2x8x2048_d3 (by decide) h_S_ b h l]
  simp only [score_kk]
  rfl

/-- An entry shifted by its row's maximum and exponentiated. -/
theorem expShift_kk (x1 : Arr) (b : Fin 2) (h : Fin 8) (l s : Fin 2048) :
    val_main_v26 (F := Ideal) x1 (ix4 b h l s) = expShift (fun k => score x1 x1 b h l k) s := by
  rw [val_main_v26_apply, val_main_v25_apply, val_main_v24_apply, val_main_v23_apply]
  have e : idx_main_v23 (idx_main_v24 (ix4 b h l s)) = ix3 b h l := funext fun a => by match a with | ⟨0, _⟩ => rfl | ⟨1, _⟩ => rfl | ⟨2, _⟩ => rfl
  rw [e, rowMax_kk, score_kk]
  rfl

/-- The row's sum of exponentials. -/
theorem expSum_kk (x1 : Arr) (b : Fin 2) (h : Fin 8) (l : Fin 2048) :
    val_main_v27 (F := Ideal) x1 (ix3 b h l) = ∑ k : Fin 2048, expShift (fun k => score x1 x1 b h l k) k := by
  rw [val_main_v27_apply, val_main_cst_7_apply]
  have e : ∀ k, idx_main_v27 (ix3 b h l) k = ix4 b h l k := fun k => funext fun a => by match a with | ⟨0, _⟩ => rfl | ⟨1, _⟩ => rfl | ⟨2, _⟩ => rfl | ⟨3, _⟩ => rfl
  simp only [e, expShift_kk]
  show Ideal.ofBits .f32 0x00000000#32 + _ = _
  rw [Ideal.ofBits_zero_f32, zero_add]

/-- The softmax weight. -/
theorem softmax_kk (x1 : Arr) (b : Fin 2) (h : Fin 8) (l s : Fin 2048) :
    val_main_v30 (F := Ideal) x1 (ix4 b h l s) = softmax (fun k => score x1 x1 b h l k) s := by
  rw [val_main_v30_apply, val_main_v29_apply, val_main_v28_apply]
  have e : idx_main_v28 (idx_main_v29 (ix4 b h l s)) = ix3 b h l := funext fun a => by match a with | ⟨0, _⟩ => rfl | ⟨1, _⟩ => rfl | ⟨2, _⟩ => rfl
  rw [e, expSum_kk, expShift_kk]
  rfl

/-! ### The scores of `x0` against `x1`, and their softmax -/

/-- The scaled product read at an entry is the score. -/
theorem score_qk (x0 x1 : Arr) (b : Fin 2) (h : Fin 8) (l s : Fin 2048) :
    val_main_v2 (F := Ideal) x0 x1 (ix4 b h l s) = score x0 x1 b h l s := by
  rw [val_main_v2_apply, val_main_v0_apply, val_main_v1_apply, val_main_cst_apply]
  have el : ∀ k, lidx_main_v0 (ix4 b h l s) k = ix4 b h l k := fun k => funext fun a => by match a with | ⟨0, _⟩ => rfl | ⟨1, _⟩ => rfl | ⟨2, _⟩ => rfl | ⟨3, _⟩ => rfl
  have er : ∀ k, ridx_main_v0 (ix4 b h l s) k = ix4 b h s k := fun k => funext fun a => by match a with | ⟨0, _⟩ => rfl | ⟨1, _⟩ => rfl | ⟨2, _⟩ => rfl | ⟨3, _⟩ => rfl
  simp only [el, er]
  rfl

/-- The row's maximum. -/
theorem rowMax_qk (x0 x1 : Arr) (b : Fin 2) (h : Fin 8) (l : Fin 2048) :
    val_main_v34 (F := Ideal) x0 x1 (ix3 b h l) = rowMax (fun k => score x0 x1 b h l k) := by
  rw [val_main_v34_apply, val_main_v33_apply, val_main_cst_9_apply]
  unfold val_main_v32
  rw [Cert.Lib.LaneMax4.hostLaneMax4_apply (val_main_v2 (F := Ideal) x0 x1) (val_main_cst_8 (F := Ideal))
    reducesTo_S2x8x2048x2048_S2x8x2048_d3 (by decide) h_S_ b h l]
  simp only [score_qk]
  rfl

/-- An entry shifted by its row's maximum and exponentiated. -/
theorem expShift_qk (x0 x1 : Arr) (b : Fin 2) (h : Fin 8) (l s : Fin 2048) :
    val_main_v38 (F := Ideal) x0 x1 (ix4 b h l s) = expShift (fun k => score x0 x1 b h l k) s := by
  rw [val_main_v38_apply, val_main_v37_apply, val_main_v36_apply, val_main_v35_apply]
  have e : idx_main_v35 (idx_main_v36 (ix4 b h l s)) = ix3 b h l := funext fun a => by match a with | ⟨0, _⟩ => rfl | ⟨1, _⟩ => rfl | ⟨2, _⟩ => rfl
  rw [e, rowMax_qk, score_qk]
  rfl

/-- The row's sum of exponentials. -/
theorem expSum_qk (x0 x1 : Arr) (b : Fin 2) (h : Fin 8) (l : Fin 2048) :
    val_main_v39 (F := Ideal) x0 x1 (ix3 b h l) = ∑ k : Fin 2048, expShift (fun k => score x0 x1 b h l k) k := by
  rw [val_main_v39_apply, val_main_cst_10_apply]
  have e : ∀ k, idx_main_v39 (ix3 b h l) k = ix4 b h l k := fun k => funext fun a => by match a with | ⟨0, _⟩ => rfl | ⟨1, _⟩ => rfl | ⟨2, _⟩ => rfl | ⟨3, _⟩ => rfl
  simp only [e, expShift_qk]
  show Ideal.ofBits .f32 0x00000000#32 + _ = _
  rw [Ideal.ofBits_zero_f32, zero_add]

/-- The softmax weight. -/
theorem softmax_qk (x0 x1 : Arr) (b : Fin 2) (h : Fin 8) (l s : Fin 2048) :
    val_main_v42 (F := Ideal) x0 x1 (ix4 b h l s) = softmax (fun k => score x0 x1 b h l k) s := by
  rw [val_main_v42_apply, val_main_v41_apply, val_main_v40_apply]
  have e : idx_main_v40 (idx_main_v41 (ix4 b h l s)) = ix3 b h l := funext fun a => by match a with | ⟨0, _⟩ => rfl | ⟨1, _⟩ => rfl | ⟨2, _⟩ => rfl
  rw [e, expSum_qk, expShift_qk]
  rfl

/-! ### The two results -/

/-- The second result, entry by entry, is the specification's attention weights. -/
theorem weights_at (x0 x1 : Arr) (b : Fin 2) (h : Fin 8) (l s : Fin 2048) :
    val_main_v31 (F := Ideal) x0 x1 (ix4 b h l s) = attnW x0 x1 b h l s := by
  rw [val_main_v31_apply, softmax_qq, softmax_kk]
  rfl

/-- The first result, entry by entry, is the specification's attention output. -/
theorem output_at (x0 x1 x2 : Arr) (b : Fin 2) (h : Fin 8) (l : Fin 2048) (d : Fin 64) :
    val_main_v43 (F := Ideal) x0 x1 x2 (ix4 b h l d) = attnOut x0 x1 x2 b h l d := by
  rw [val_main_v43_apply]
  have el : ∀ k, lidx_main_v43 (ix4 b h l d) k = ix4 b h l k := fun k => funext fun a => by match a with | ⟨0, _⟩ => rfl | ⟨1, _⟩ => rfl | ⟨2, _⟩ => rfl | ⟨3, _⟩ => rfl
  have er : ∀ k, ridx_main_v43 (ix4 b h l d) k = ix4 b h k d := fun k => funext fun a => by match a with | ⟨0, _⟩ => rfl | ⟨1, _⟩ => rfl | ⟨2, _⟩ => rfl | ⟨3, _⟩ => rfl
  simp only [el, er, softmax_qk]
  rfl

end Cert.ReferenceIdeal.RefSpec

end
-- ==== Proof.LibMergeLeading.lean ====
/-
  Two leading axes merged into one, and split again, read at an index.

  An `[a, b, c, d]` array viewed as an `[n, c, d]` array with `n = a · b` reads, at `(g, r, s)` with `g = p · b + q`, the
  array at `(p, q, r, s)`; and the `[n, c, d]` array viewed as `[a, b, c, d]` reads, at `(p, q, r, s)`, the array at
  `(p · b + q, r, s)`.  Both views keep the row-major order, so only the position `((p · b + q) · c + r) · d + s` matters.
-/
import Idealize.ShloMosaic.Lib.ValueIdx
import Idealize.ShloMosaic.Lib.Pipeline.Value

noncomputable section

namespace Cert.Lib.MergeLeading

open Idealize.ShloMosaic Idealize.ShloMosaic.ValueIdx

variable {α : Type}

/-- An `[a, b, c, d]` array with its two leading axes merged, at `(g, r, s)` where `g = p · b + q`. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (s : Fin d)
    (g : Fin n) (hg : g.val = p.val * b + q.val) :
    shapeCast ⟨3, ![n, c, d]⟩ x h (ix3 g r s) = x (ix4 p q r s) :=
  shapeCast_apply x h _ _ (by
    rw [Shape.rowMajor_val_four, Shape.rowMajor_val_three]
    show ((p.val * b + q.val) * c + r.val) * d + s.val = (g.val * c + r.val) * d + s.val
    rw [hg])

/-- An `[n, c, d]` array with its leading axis split in two, at `(p, q, r, s)`: the array at `(p · b + q, r, s)`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (s : Fin d)
    (g : Fin n) (hg : g.val = p.val * b + q.val) :
    shapeCast ⟨4, ![a, b, c, d]⟩ x h (ix4 p q r s) = x (ix3 g r s) :=
  shapeCast_apply x h _ _ (by
    rw [Shape.rowMajor_val_three, Shape.rowMajor_val_four]
    show (g.val * c + r.val) * d + s.val = ((p.val * b + q.val) * c + r.val) * d + s.val
    rw [hg])

end Cert.Lib.MergeLeading

end
-- ==== Proof.Bridge.lean ====
/-
  The kernel's two results are the specification of the argument arrays.

  The kernel merges batch and head into one axis of 16 groups before the region and splits it again after: group
  `8·b + h` is batch `b`, head `h`, and both views keep the row-major order.  So an entry `(b, h, l, ·)` of a result is
  the merged arrays' expression at group `8·b + h`, and every entry of a merged array it mentions is the argument's
  entry at `(b, h, ·, ·)`: the merged specification read at the split index is the specification.
-/
import proofs.«154308_j19610820674059_1_alg».proof.Proof.KernelValue
import proofs.«154308_j19610820674059_1_alg».proof.Proof.AttnSpec
import proofs.«154308_j19610820674059_1_alg».proof.Proof.LibMergeLeading

noncomputable section

open scoped BigOperators

open Idealize.ShloMosaic Idealize.ShloMosaic.TcCoe Idealize.SL.Sem

namespace Cert.KernelIdeal.Bridge

open Cert.KernelIdeal Cert.KernelIdeal.Gen Cert.KernelIdeal.AttnValue Cert.AttnSpec Cert.Lib.SoftmaxTile Cert.Lib.MergeLeading
open Idealize.ShloMosaic.ValueIdx

/-- Group `8·b + h`. -/
abbrev grp (b : Fin 2) (h : Fin 8) : Fin 16 := ⟨b.val * 8 + h.val, by have := b.isLt; have := h.isLt; omega⟩

/-- A merged argument at group `8·b + h` is the argument at batch `b`, head `h`. -/
theorem merged_at (X : S2x8x2048x64.Idx → EReal) (b : Fin 2) (h : Fin 8) (r : Fin 2048) (d : Fin 64) :
    merged X (ix3 (grp b h) r d) = X (ix4 b h r d) :=
  shapeCast_abcd_ncd_apply X shapeCasts_S2x8x2048x64_S16x2048x64 b h r d (grp b h) rfl

/-- The merged arrays' score at group `8·b + h` is the arguments' score at batch `b`, head `h`. -/
theorem score3_merged (A B : S2x8x2048x64.Idx → EReal) (b : Fin 2) (h : Fin 8) (l s : Fin 2048) :
    score3 (merged A) (merged B) (grp b h) l s = score A B b h l s := by
  unfold score3 score
  simp only [merged_at]

variable (m : (ℓ : Loc nD τ sig) → Buf (Elt Ideal) ℓ)

/-- The first result, entry by entry, is the specification's attention output of the arguments. -/
theorem outRes_at (c : Dev nD) (b : Fin 2) (h : Fin 8) (l : Fin 2048) (d : Fin 64) :
    outRes m c (ix4 b h l d)
      = attnOut (m ((c : Thread nD τ).loc main_arg0)) (m ((c : Thread nD τ).loc main_arg1)) (m ((c : Thread nD τ).loc main_arg2)) b h l d := by
  unfold outRes
  refine (shapeCast_ncd_abcd_apply _ shapeCasts_S16x2048x64_S2x8x2048x64 b h l d (grp b h) rfl).trans ?_
  show output3 _ _ _ (grp b h) l d = _
  unfold output3 attnOut
  simp only [score3_merged, merged_at]

/-- The second result, entry by entry, is the specification's attention weights of the arguments. -/
theorem weightRes_at (c : Dev nD) (b : Fin 2) (h : Fin 8) (l s : Fin 2048) :
    weightRes m c (ix4 b h l s)
      = attnW (m ((c : Thread nD τ).loc main_arg0)) (m ((c : Thread nD τ).loc main_arg1)) b h l s := by
  unfold weightRes
  refine (shapeCast_ncd_abcd_apply _ shapeCasts_S16x2048x2048_S2x8x2048x2048 b h l s (grp b h) rfl).trans ?_
  show weights3 _ _ (grp b h) l s = _
  unfold weights3 attnW
  simp only [score3_merged]

end Cert.KernelIdeal.Bridge

end
-- ==== Proof.lean ====
/-
  The proof of `Cert.Claim`: the three frames, the (empty) idealization ledger, and the equality of the idealized
  kernel's and the idealized reference's results over the extended reals.

  Both programs compute scaled-dot-product attention with two extra self-similarity softmaxes: with
  `score A B [l, s] = (Σ_d A[l, d] · B[s, d]) / 8` per batch and head, the first result is
  `softmax(score Q K) · V` and the second `softmax(score Q Q) + softmax(score K K)`, every softmax taken along the
  key positions with the row's maximum subtracted first.  The kernel works on 16 merged (batch, head) groups and on
  256 query rows per grid point, against the whole key and value blocks of the group, so a row of its score tile is a
  whole row of the reference's score tensor: row by row the two programs evaluate the same expression of the same
  entries, and no law of the extended reals (hence no use of the inputs' finiteness) is needed to join them.

  `AttnSpec` states the two results as functions of the arguments; `RefSpec` reads the reference's run as them, one
  operation at a time; `Pieces`, `KernelPay` and `KernelValue` read the kernel's run: what a grid point stores, entry
  by entry, that the 128 blocks tile the two arrays, and the reshapes around the region; `Bridge` undoes the merge of
  batch and head.
-/
import proofs.«154308_j19610820674059_1_alg».proof.Defs
import proofs.«154308_j19610820674059_1_alg».proof.Proof.Gen.Kernel
import proofs.«154308_j19610820674059_1_alg».proof.Proof.Gen.Kernel.Frame
import proofs.«154308_j19610820674059_1_alg».proof.Proof.Gen.KernelIdeal
import proofs.«154308_j19610820674059_1_alg».proof.Proof.Gen.KernelIdeal.Frame
import proofs.«154308_j19610820674059_1_alg».proof.Proof.Gen.ReferenceIdeal
import proofs.«154308_j19610820674059_1_alg».proof.Proof.Gen.ReferenceIdeal.Run
import proofs.«154308_j19610820674059_1_alg».proof.Proof.Gen.ReferenceIdeal.Read
import proofs.«154308_j19610820674059_1_alg».proof.Proof.Gen.Pre_finite_inputs
import proofs.«154308_j19610820674059_1_alg».proof.Proof.KernelValue
import proofs.«154308_j19610820674059_1_alg».proof.Proof.RefSpec
import proofs.«154308_j19610820674059_1_alg».proof.Proof.Bridge
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both runs end with the first result at the specification's attention output and the second at its attention
    weights, of arguments that agree. -/
theorem algebraic : Cert.algebraic_KernelIdeal_ReferenceIdeal := by
  intro m ρ m' ρ' _ hagree
  refine ⟨fun c => Cert.KernelIdeal.AttnValue.outRes m c, fun c => Cert.KernelIdeal.AttnValue.weightRes m c,
    Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v43_eq _ _ _).trans ?_
    rw [(hagree c).1, (hagree c).2.1, (hagree c).2.2]
    funext i
    obtain ⟨b, h', l, d, rfl⟩ : ∃ (b : Fin 2) (h' : Fin 8) (l : Fin 2048) (d : Fin 64), i = ix4 b h' l d :=
      ⟨i 0, i 1, i 2, i 3, eq_ix4 i⟩
    rw [Cert.ReferenceIdeal.RefSpec.output_at]
    exact (Cert.KernelIdeal.Bridge.outRes_at m c b h' l d).symm
  · refine (Cert.ReferenceIdeal.Read.val_main_v31_eq m' c).trans ?_
    rw [(hagree c).1, (hagree c).2.1]
    funext i
    obtain ⟨b, h', l, s, rfl⟩ : ∃ (b : Fin 2) (h' : Fin 8) (l s : Fin 2048), i = ix4 b h' l s :=
      ⟨i 0, i 1, i 2, i 3, eq_ix4 i⟩
    rw [Cert.ReferenceIdeal.RefSpec.weights_at]
    exact (Cert.KernelIdeal.Bridge.weightRes_at m c b h' l s).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
